-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4 : Shape := ⟨2, ![1048576, 4]⟩
abbrev S4x64 : Shape := ⟨2, ![4, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S1048576x4 : S_.BroadcastsInDim S1048576x4 (![] : Fin 0 → Fin S1048576x4.rank)
  reducesTo_S1048576x4_S_d0_1 : S1048576x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S3 .f32) (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S1048576x4 .f32) (main_arg1 : FVec F S4x64 .f32) (main_arg2 : FVec F S64 .f32) (main_arg3 : FVec F S64x3 .f32) (main_arg4 : FVec F S3 .f32) : IVec S_ 1 :=
  let main_v0 : FVec F S1048576x4 .f32 := Host.absf main_arg0
  let main_cst : FVec F S_ .f32 := constant S_ .f32 0x7F800000#32
  let main_v1 : FVec F S1048576x4 .f32 := broadcastInDim S1048576x4 ![] bcast_S_S1048576x4 main_cst
  let main_v2 : IVec S1048576x4 1 := cmpf .olt main_v0 main_v1
  let main_c : IVec S_ 1 := constantI S_ 1 1#1
  let main_v3 : IVec S_ 1 := (fun x v => Host.reduce IntOp.andi x v reducesTo_S1048576x4_S_d0_1 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x3 .f32 := Host.absf main_arg3
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_arg4 main_v13 main_v16
-- ==== Kernel.lean ====
abbrev S1048576x4 : Shape := ⟨2, ![1048576, 4]⟩
abbrev S4x64 : Shape := ⟨2, ![4, 64]⟩
abbrev S64 : Shape := ⟨1, ![64]⟩
abbrev S64x3 : Shape := ⟨2, ![64, 3]⟩
abbrev S3 : Shape := ⟨1, ![3]⟩
abbrev S1x4 : Shape := ⟨2, ![1, 4]⟩
abbrev S1x1x1x4 : Shape := ⟨4, ![1, 1, 1, 4]⟩
abbrev S8x1x1x4 : Shape := ⟨4, ![8, 1, 1, 4]⟩
abbrev S8x4 : Shape := ⟨2, ![8, 4]⟩
abbrev S4x1048576 : Shape := ⟨2, ![4, 1048576]⟩
abbrev S64x4 : Shape := ⟨2, ![64, 4]⟩
abbrev S64x1 : Shape := ⟨2, ![64, 1]⟩
abbrev S3x64 : Shape := ⟨2, ![3, 64]⟩
abbrev S3x1 : Shape := ⟨2, ![3, 1]⟩
abbrev S3x1048576 : Shape := ⟨2, ![3, 1048576]⟩
abbrev S4x131072 : Shape := ⟨2, ![4, 131072]⟩
abbrev S3x131072 : Shape := ⟨2, ![3, 131072]⟩
abbrev S8x131072 : Shape := ⟨2, ![8, 131072]⟩
abbrev S64x131072 : Shape := ⟨2, ![64, 131072]⟩
abbrev S1048576x3 : Shape := ⟨2, ![1048576, 3]⟩

abbrev nBuf : Space → Nat
  | .hbm => 16
  | .vmem => 9
  | .smem => 0
  | _ => 0

abbrev bufTy : (tb : Table) → Fin (tcTables nBuf tb) → BufTy
  | .hbm, ⟨0, _⟩ => ⟨S1048576x4, .f32⟩
  | .hbm, ⟨1, _⟩ => ⟨S4x64, .f32⟩
  | .hbm, ⟨2, _⟩ => ⟨S64, .f32⟩
  | .hbm, ⟨3, _⟩ => ⟨S64x3, .f32⟩
  | .hbm, ⟨4, _⟩ => ⟨S3, .f32⟩
  | .hbm, ⟨5, _⟩ => ⟨S1x4, .f32⟩
  | .hbm, ⟨6, _⟩ => ⟨S1x1x1x4, .f32⟩
  | .hbm, ⟨7, _⟩ => ⟨S8x1x1x4, .f32⟩
  | .hbm, ⟨8, _⟩ => ⟨S8x4, .f32⟩
  | .hbm, ⟨9, _⟩ => ⟨S4x1048576, .f32⟩
  | .hbm, ⟨10, _⟩ => ⟨S64x4, .f32⟩
  | .hbm, ⟨11, _⟩ => ⟨S64x1, .f32⟩
  | .hbm, ⟨12, _⟩ => ⟨S3x64, .f32⟩
  | .hbm, ⟨13, _⟩ => ⟨S3x1, .f32⟩
  | .hbm, ⟨14, _⟩ => ⟨S3x1048576, .f32⟩
  | .hbm, ⟨15, _⟩ => ⟨S1048576x3, .f32⟩
  | .local _ .vmem, ⟨0, _⟩ => ⟨S4x131072, .f32⟩
  | .local _ .vmem, ⟨1, _⟩ => ⟨S4x131072, .f32⟩
  | .local _ .vmem, ⟨2, _⟩ => ⟨S64x4, .f32⟩
  | .local _ .vmem, ⟨3, _⟩ => ⟨S64x1, .f32⟩
  | .local _ .vmem, ⟨4, _⟩ => ⟨S3x64, .f32⟩
  | .local _ .vmem, ⟨5, _⟩ => ⟨S3x1, .f32⟩
  | .local _ .vmem, ⟨6, _⟩ => ⟨S8x4, .f32⟩
  | .local _ .vmem, ⟨7, _⟩ => ⟨S3x131072, .f32⟩
  | .local _ .vmem, ⟨8, _⟩ => ⟨S3x131072, .f32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x131072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x4_S1x1x1x4 : S1x4.ShapeCasts S1x1x1x4
  bcast_S1x1x1x4_S8x1x1x4_0_1_2_3 : S1x1x1x4.BroadcastsInDim S8x1x1x4 (![0, 1, 2, 3] : Fin 4 → Fin S8x1x1x4.rank)
  shapeCasts_S8x1x1x4_S8x4 : S8x1x1x4.ShapeCasts S8x4
  transposes_S1048576x4_S4x1048576_1_0 : S1048576x4.Transposes [1, 0] S4x1048576
  transposes_S4x64_S64x4_1_0 : S4x64.Transposes [1, 0] S64x4
  shapeCasts_S64_S64x1 : S64.ShapeCasts S64x1
  transposes_S64x3_S3x64_1_0 : S64x3.Transposes [1, 0] S3x64
  shapeCasts_S3_S3x1 : S3.ShapeCasts S3x1
  inb_S4x131072_S4x131072_0_0 : ∀ a, (![0, 0] : Fin 2 → Nat) a + S4x131072.size a ≤ S4x131072.size a
  h_S4x131072 : 0 < S4x131072.numel
  shapeCasts_S4x131072_S4x131072 : S4x131072.ShapeCasts S4x131072
  inb_S8x4_S8x4_0_0 : ∀ a, (![0, 0] : Fin 2 → Nat) a + S8x4.size a ≤ S8x4.size a
  h_S8x4 : 0 < S8x4.numel
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x131072 : S64x1.Broadcasts S64x131072
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x131072 : S3x1.Broadcasts S3x131072
  slices_S8x131072_o0_0_S3x131072 : S8x131072.Slices ![0, 0] S3x131072
  inb_S3x131072_S3x131072_0_0 : ∀ a, (![0, 0] : Fin 2 → Nat) a + S3x131072.size a ≤ S3x131072.size a
  h_S3x131072 : 0 < S3x131072.numel
  transposes_S3x1048576_S1048576x3_1_0 : S3x1048576.Transposes [1, 0] S1048576x3
  dot_S8x4_S4x131072_S8x131072_1_0_0_1_n_n_wf : DotDims.WF S8x4 S4x131072 S8x131072 [1] [0] [0] [1] [] []
  dot_S64x4_S4x131072_S64x131072_1_0_0_1_n_n_wf : DotDims.WF S64x4 S4x131072 S64x131072 [1] [0] [0] [1] [] []
  dot_S3x64_S64x131072_S3x131072_1_0_0_1_n_n_wf : DotDims.WF S3x64 S64x131072 S3x131072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x131072.size a ≤ S4x1048576.size a
  hwx0_0 : ∀ i : grid0.Coords, EltTy.bits .f32 = 32 ∨ (Rect.block (s := S4x1048576) S4x131072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1.size a ≤ S3x1.size a
  hwx0_4 : ∀ i : grid0.Coords, EltTy.bits .f32 = 32 ∨ (Rect.block (s := S3x1) S3x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x4.size a ≤ S8x4.size a
  hwx0_5 : ∀ i : grid0.Coords, EltTy.bits .f32 = 32 ∨ (Rect.block (s := S8x4) S8x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3x131072.size a ≤ S3x1048576.size a
  hwx0_6 : ∀ i : grid0.Coords, EltTy.bits .f32 = 32 ∨ (Rect.block (s := S3x1048576) S3x131072.size (cc0_transform_6 i) (hinb0_6 i)).WholeWords (EltTy.packing .f32)

variable [Facts₀]

def dot_S8x4_S4x131072_S8x131072_1_0_0_1_n_n : DotDims S8x4 S4x131072 S8x131072 where
  lhsContracting := [1]
  rhsContracting := [0]
  lhsNonContracting := [0]
  rhsNonContracting := [1]
  lhsBatch := []
  rhsBatch := []
  wf := dot_S8x4_S4x131072_S8x131072_1_0_0_1_n_n_wf
def dot_S64x4_S4x131072_S64x131072_1_0_0_1_n_n : DotDims S64x4 S4x131072 S64x131072 where
  lhsContracting := [1]
  rhsContracting := [0]
  lhsNonContracting := [0]
  rhsNonContracting := [1]
  lhsBatch := []
  rhsBatch := []
  wf := dot_S64x4_S4x131072_S64x131072_1_0_0_1_n_n_wf
def dot_S3x64_S64x131072_S3x131072_1_0_0_1_n_n : DotDims S3x64 S64x131072 S3x131072 where
  lhsContracting := [1]
  rhsContracting := [0]
  lhsNonContracting := [0]
  rhsNonContracting := [1]
  lhsBatch := []
  rhsBatch := []
  wf := dot_S3x64_S64x131072_S3x131072_1_0_0_1_n_n_wf

abbrev win0_0 : Pipeline.Window sig grid0 :=
  Pipeline.Window.ofSpec (Memref.whole main_v3) S4x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S3x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S3x131072.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1048576x4 : Shape := ⟨2, ![1048576, 4]⟩
abbrev S4x64 : Shape := ⟨2, ![4, 64]⟩
abbrev S64 : Shape := ⟨1, ![64]⟩
abbrev S64x3 : Shape := ⟨2, ![64, 3]⟩
abbrev S3 : Shape := ⟨1, ![3]⟩
abbrev S1048576x3 : Shape := ⟨2, ![1048576, 3]⟩
abbrev S_ : Shape := ⟨0, ![]⟩
abbrev S1048576 : Shape := ⟨1, ![1048576]⟩
abbrev S1048576x64 : Shape := ⟨2, ![1048576, 64]⟩
abbrev S1x64 : Shape := ⟨2, ![1, 64]⟩
abbrev S1x3 : Shape := ⟨2, ![1, 3]⟩
abbrev S1048576x1 : Shape := ⟨2, ![1048576, 1]⟩

abbrev nBuf : Space → Nat
  | .hbm => 31
  | .vmem => 0
  | .smem => 0
  | _ => 0

abbrev bufTy : (tb : Table) → Fin (tcTables nBuf tb) → BufTy
  | .hbm, ⟨0, _⟩ => ⟨S1048576x4, .f32⟩
  | .hbm, ⟨1, _⟩ => ⟨S4x64, .f32⟩
  | .hbm, ⟨2, _⟩ => ⟨S64, .f32⟩
  | .hbm, ⟨3, _⟩ => ⟨S64x3, .f32⟩
  | .hbm, ⟨4, _⟩ => ⟨S3, .f32⟩
  | .hbm, ⟨5, _⟩ => ⟨S1048576x3, .f32⟩
  | .hbm, ⟨6, _⟩ => ⟨S_, .f32⟩
  | .hbm, ⟨7, _⟩ => ⟨S1048576x3, .f32⟩
  | .hbm, ⟨8, _⟩ => ⟨S1048576x3, .i1⟩
  | .hbm, ⟨9, _⟩ => ⟨S_, .f32⟩
  | .hbm, ⟨10, _⟩ => ⟨S1048576x3, .f32⟩
  | .hbm, ⟨11, _⟩ => ⟨S1048576x3, .i1⟩
  | .hbm, ⟨12, _⟩ => ⟨S1048576x3, .i1⟩
  | .hbm, ⟨13, _⟩ => ⟨S_, .i1⟩
  | .hbm, ⟨14, _⟩ => ⟨S1048576, .i1⟩
  | .hbm, ⟨15, _⟩ => ⟨S1048576x64, .f32⟩
  | .hbm, ⟨16, _⟩ => ⟨S1x64, .f32⟩
  | .hbm, ⟨17, _⟩ => ⟨S1048576x64, .f32⟩
  | .hbm, ⟨18, _⟩ => ⟨S1048576x64, .f32⟩
  | .hbm, ⟨19, _⟩ => ⟨S_, .f32⟩
  | .hbm, ⟨20, _⟩ => ⟨S1048576x64, .f32⟩
  | .hbm, ⟨21, _⟩ => ⟨S1048576x64, .f32⟩
  | .hbm, ⟨22, _⟩ => ⟨S1048576x3, .f32⟩
  | .hbm, ⟨23, _⟩ => ⟨S1x3, .f32⟩
  | .hbm, ⟨24, _⟩ => ⟨S1048576x3, .f32⟩
  | .hbm, ⟨25, _⟩ => ⟨S1048576x3, .f32⟩
  | .hbm, ⟨26, _⟩ => ⟨S1048576x1, .i1⟩
  | .hbm, ⟨27, _⟩ => ⟨S_, .f32⟩
  | .hbm, ⟨28, _⟩ => ⟨S1048576x3, .i1⟩
  | .hbm, ⟨29, _⟩ => ⟨S1048576x3, .f32⟩
  | .hbm, ⟨30, _⟩ => ⟨S1048576x3, .f32⟩
  | _, _ => ⟨S1048576x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  slices_S1048576x4_S1048576x3_0_0 : S1048576x4.Slices ![0, 0] S1048576x3
  bcast_S_S1048576x3 : S_.BroadcastsInDim S1048576x3 (![] : Fin 0 → Fin S1048576x3.rank)
  reducesTo_S1048576x3_S1048576_d1 : S1048576x3.ReducesTo [1] S1048576
  h_S_ : 0 < S_.numel
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  bcast_S1048576_S1048576x1_0 : S1048576.BroadcastsInDim S1048576x1 (![0] : Fin 1 → Fin S1048576x1.rank)
  bcast_S1048576x1_S1048576x3_0_1 : S1048576x1.BroadcastsInDim S1048576x3 (![0, 1] : Fin 2 → Fin S1048576x3.rank)
  dot_S1048576x4_S4x64_S1048576x64_1_0_0_1_n_n_wf : DotDims.WF S1048576x4 S4x64 S1048576x64 [1] [0] [0] [1] [] []
  dot_S1048576x64_S64x3_S1048576x3_1_0_0_1_n_n_wf : DotDims.WF S1048576x64 S64x3 S1048576x3 [1] [0] [0] [1] [] []

variable [Facts₀]

def dot_S1048576x4_S4x64_S1048576x64_1_0_0_1_n_n : DotDims S1048576x4 S4x64 S1048576x64 where
  lhsContracting := [1]
  rhsContracting := [0]
  lhsNonContracting := [0]
  rhsNonContracting := [1]
  lhsBatch := []
  rhsBatch := []
  wf := dot_S1048576x4_S4x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf

class Facts : Prop extends Facts₀ where

variable [Facts]
-- ==== Proof.LibBufCast.lean ====
/-
  A tensor value carried to its buffer's type and back is the value.

  A typed reference pairs a buffer with the fact that the buffer's type is the value's type; `toBuf` carries a value
  along that fact to the buffer's type and `ofBuf` carries it back. The round trip is the identity.
-/
import Idealize.ShloMosaic.Lib.StableHlo

namespace Cert.LibBufCast

open Idealize.ShloMosaic Idealize.ShloMosaic.StableHlo

/-- `ofBuf` after `toBuf` at the same typed reference is the identity. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Cert.LibBufCast
-- ==== Proof.Spec.lean ====
/-
  The velocity field of a small network, set to zero outside a box.

  A point is a row `(x₀, x₁, x₂, x₃)` of the input. Its velocity is the row
  `max (x · W1 + b1) 0 · W2 + b2` (one hidden layer of 64 units, three outputs). A point is OUTSIDE the box when one of
  its first three coordinates is below `-c` or above `c`, `c` the float `1.03`; the result at an outside point is zero in
  all three columns, and the velocity elsewhere.

  `G` states this index by index on the extended reals. Two laws join the two ways the programs spell it:

  * `outside_by_excess`: with `e j = max (|x j| - c) 0` the amount by which coordinate `j` exceeds the bound, the sum
    `1·e 0 + 1·e 1 + 1·e 2 + 0·e 3` is positive exactly when the point is outside the box. Every `e j` is nonnegative, so
    the sum is positive iff one of its first three terms is; `e j > 0` iff `|x j| > c` iff `x j < -c` or `x j > c`. The
    fourth term is `0 · e 3 = 0` whatever `e 3` is. None of this needs the entries to be finite.
  * the two products are read with their factors in either order: multiplication of extended reals commutes.
-/
import Idealize.ShloMosaic.PureOps.Ideal
import Idealize.ShloMosaic.PureOps.Ideal.Laws
import Idealize.ShloMosaic.Lib.ValueIdx

noncomputable section

open scoped BigOperators

namespace Cert.VelSpec

open Idealize.ShloMosaic Idealize.ShloMosaic.ValueIdx

/-! ## The four float words the programs spell -/

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- The box's half-width, the float `1.03`: exponent field `127`, fraction `251658`, so `(2²³ + 251658) · 2⁻²³`. -/
theorem ofBits_hi : Ideal.ofBits .f32 0x3F83D70A#32 = ((8640266 / 8388608 : ℝ) : EReal) := by
  simp [Ideal.ofBits, Ideal.ieee, -EReal.coe_mul]; norm_num

/-- The same word with the sign bit set. -/
theorem ofBits_lo_val : Ideal.ofBits .f32 0xBF83D70A#32 = ((-(8640266 / 8388608) : ℝ) : EReal) := by
  simp [Ideal.ofBits, Ideal.ieee, -EReal.coe_mul]; norm_num

/-- The lower bound is the negative of the upper bound: the two words differ in the sign bit only. -/
theorem ofBits_lo : Ideal.ofBits .f32 0xBF83D70A#32 = -Ideal.ofBits .f32 0x3F83D70A#32 := by
  rw [ofBits_lo_val, ofBits_hi, EReal.coe_neg]

/-! ## The function -/

/-- One bit per point: `1` when one of the first three coordinates is below the lower bound or above the upper bound. -/
def outsideBit (xt : FVec Ideal ⟨2, ![1048576, 4]⟩ .f32) (n : Fin 1048576) : BitVec 1 :=
  BitVec.ofBool (decide (∃ j : Fin 3, xt (ix2 n j.castSucc) < Ideal.ofBits .f32 0xBF83D70A#32 ∨ Ideal.ofBits .f32 0x3F83D70A#32 < xt (ix2 n j.castSucc)))

/-- Hidden unit `k` at point `n`: `max (∑ j, x (n, j) · W1 (j, k) + b1 k) 0`. -/
def hidden (xt : FVec Ideal ⟨2, ![1048576, 4]⟩ .f32) (W1 : FVec Ideal ⟨2, ![4, 64]⟩ .f32) (b1 : FVec Ideal ⟨1, ![64]⟩ .f32)
    (n : Fin 1048576) (k : Fin 64) : EReal :=
  max ((∑ j : Fin 4, xt (ix2 n j) * W1 (ix2 j k)) + b1 (ix1 k)) (Ideal.ofBits .f32 0x00000000#32)

/-- Output `c` at point `n`: `∑ k, hidden (n, k) · W2 (k, c) + b2 c`. -/
def vel (xt : FVec Ideal ⟨2, ![1048576, 4]⟩ .f32) (W1 : FVec Ideal ⟨2, ![4, 64]⟩ .f32) (b1 : FVec Ideal ⟨1, ![64]⟩ .f32)
    (W2 : FVec Ideal ⟨2, ![64, 3]⟩ .f32) (b2 : FVec Ideal ⟨1, ![3]⟩ .f32) (n : Fin 1048576) (c : Fin 3) : EReal :=
  (∑ k : Fin 64, hidden xt W1 b1 n k * W2 (ix2 k c)) + b2 (ix1 c)

/-- The result, `[1048576, 3]`: zero at the points outside the box, the velocity elsewhere. -/
def G (xt : FVec Ideal ⟨2, ![1048576, 4]⟩ .f32) (W1 : FVec Ideal ⟨2, ![4, 64]⟩ .f32) (b1 : FVec Ideal ⟨1, ![64]⟩ .f32)
    (W2 : FVec Ideal ⟨2, ![64, 3]⟩ .f32) (b2 : FVec Ideal ⟨1, ![3]⟩ .f32) : FVec Ideal ⟨2, ![1048576, 3]⟩ .f32 :=
  fun i => Scalar.select (outsideBit xt (i 0)) (Ideal.ofBits .f32 0x00000000#32) (vel xt W1 b1 W2 b2 (i 0) (i 1))

theorem G_apply (xt : FVec Ideal ⟨2, ![1048576, 4]⟩ .f32) (W1 : FVec Ideal ⟨2, ![4, 64]⟩ .f32) (b1 : FVec Ideal ⟨1, ![64]⟩ .f32)
    (W2 : FVec Ideal ⟨2, ![64, 3]⟩ .f32) (b2 : FVec Ideal ⟨1, ![3]⟩ .f32) (n : Fin 1048576) (c : Fin 3) :
    G xt W1 b1 W2 b2 (ix2 n c)
      = Scalar.select (outsideBit xt n) (Ideal.ofBits .f32 0x00000000#32) (vel xt W1 b1 W2 b2 n c) := rfl

/-! ## The laws -/

/-- A sum of two nonnegative extended reals is positive exactly when one of them is. -/
theorem add_pos_iff_of_nonneg {a b : EReal} (ha : 0 ≤ a) (hb : 0 ≤ b) : 0 < a + b ↔ 0 < a ∨ 0 < b := by
  constructor
  · intro h
    by_contra hn
    push Not at hn
    have ha0 : a = 0 := le_antisymm hn.1 ha
    have hb0 : b = 0 := le_antisymm hn.2 hb
    rw [ha0, hb0, add_zero] at h
    exact lt_irrefl _ h
  · rintro (h | h)
    · exact lt_of_lt_of_le h (le_add_of_nonneg_right hb)
    · exact lt_of_lt_of_le h (le_add_of_nonneg_left ha)

/-- The excess of `|x|` over `C` is positive exactly when `x` is below `-C` or above `C`. -/
theorem excess_pos_iff (x C : EReal) : 0 < max (max x (-x) - C) 0 ↔ x < -C ∨ C < x := by
  rw [lt_max_iff, EReal.sub_pos, lt_max_iff]
  constructor
  · rintro ((h | h) | h)
    · exact Or.inr h
    · exact Or.inl (EReal.lt_neg_comm.mp h)
    · exact absurd h (lt_irrefl _)
  · rintro (h | h)
    · exact Or.inl (Or.inr (EReal.lt_neg_comm.mp h))
    · exact Or.inl (Or.inl h)

/-- The weighted sum of the four excesses, weights `1, 1, 1, 0`, compared with zero, is the outside bit. -/
theorem outside_by_excess (x g : Fin 4 → EReal) (C Cn Z : EReal) (hg0 : g 0 = 1) (hg1 : g 1 = 1) (hg2 : g 2 = 1)
    (hg3 : g 3 = 0) (hZ : Z = 0) (hC : Cn = -C) :
    Ideal.cmp .ogt (∑ j : Fin 4, g j * max (max (x j) (-(x j)) - C) Z) Z
      = BitVec.ofBool (decide (∃ j : Fin 3, x j.castSucc < Cn ∨ C < x j.castSucc)) := by
  subst hZ hC
  show BitVec.ofBool (decide (0 < ∑ j : Fin 4, g j * max (max (x j) (-(x j)) - C) 0)) = _
  congr 1
  rw [decide_eq_decide, Fin.sum_univ_four, hg0, hg1, hg2, hg3, one_mul, one_mul, one_mul, zero_mul, add_zero]
  have n0 : (0 : EReal) ≤ max (max (x 0) (-(x 0)) - C) 0 := le_max_right _ _
  have n1 : (0 : EReal) ≤ max (max (x 1) (-(x 1)) - C) 0 := le_max_right _ _
  have n2 : (0 : EReal) ≤ max (max (x 2) (-(x 2)) - C) 0 := le_max_right _ _
  rw [add_pos_iff_of_nonneg (add_nonneg n0 n1) n2, add_pos_iff_of_nonneg n0 n1, excess_pos_iff, excess_pos_iff,
    excess_pos_iff]
  constructor
  · rintro ((h | h) | h)
    · exact ⟨0, h⟩
    · exact ⟨1, h⟩
    · exact ⟨2, h⟩
  · rintro ⟨j, h⟩
    match j, h with
    | ⟨0, _⟩, h => exact Or.inl (Or.inl h)
    | ⟨1, _⟩, h => exact Or.inl (Or.inr h)
    | ⟨2, _⟩, h => exact Or.inr h

end Cert.VelSpec

end
-- ==== Proof.RefIsSpec.lean ====
/-
  The reference program computes the specification.

  The reference takes a point `x = (x₀, x₁, x₂, x₃)` (a row of the first input), a hidden layer `W1, b1` of 64 units and
  an output layer `W2, b2` of three units, and returns, row by row,

      zero                               if the point is outside the box,
      max (x · W1 + b1) 0 · W2 + b2      otherwise,

  where OUTSIDE means: one of the first three coordinates is below the lower bound or above the upper bound. This module
  reads the program's result at one index `(n, c)` and finds there, term for term, what `Cert.VelSpec.G` states.

  The result is a select of three arrays, read one at a time.

  * THE ZERO. A scalar constant broadcast to every index: at every index it is the constant's word.

  * THE VELOCITY. The last addition reads as `(second product) (n, c) + b2 c`: the bias is broadcast first to a row
    `[1, 3]` and then down the rows, so index `(n, c)` reads `b2` at `c`. The second product is a contraction over one
    axis, so it reads as the sum over `k : Fin 64` of `(hidden array) (n, k) · W2 (k, c)`. The hidden array is a maximum
    with the broadcast zero of `(first product) (n, k) + b1 k` (the same two broadcasts), and the first product is the sum
    over `j : Fin 4` of `x (n, j) · W1 (j, k)`. On the extended reals the program's addition, product and maximum ARE
    `+`, `*` and `max`, so once each index function is identified with the index it builds (an equation between two
    functions on one or two axes, checked axis by axis) both sides are the same term.

  * THE CONDITION. One bit per point, broadcast along the three columns: index `(n, c)` reads the bit of point `n`. That
    bit is a reduction by `or`, from the bit `0`, over axis 1 of the `[1048576, 3]` array whose entry `(n, k)` is
    `(x (n, k) < lo) or (x (n, k) > hi)`, the entries of the first three columns of the input (a slice: `(n, k)` of the
    slice is `(n, k)` of the input, `k` now counted among four columns), `lo` and `hi` two broadcast constants.
    `or` commutes and associates, so the reduction at `n` is the fold over the three coordinates `k` of the entries
    `(n, k)`. Each comparison is the bit of a decided inequality; the `or` of two such bits is the bit of the disjunction;
    and a fold of `or` from `0` over a finite set of such bits is the bit of "some member satisfies it"
    (`fold_ori_ofBool`, by induction on the set). So the bit of point `n` is the bit of
    `∃ k : Fin 3, x (n, k) < lo ∨ hi < x (n, k)`, which is `outsideBit`.

  No float word is evaluated: the two bounds and the zero appear on both sides as the same words.
-/
import proofs.«179525_g24309514896055_cont_9to1_421_22_alg».proof.Proof.ReadPatched
import proofs.«179525_g24309514896055_cont_9to1_421_22_alg».proof.Proof.Spec
import Idealize.ShloMosaic.PureOps.Reduce
import Idealize.ShloMosaic.Lib.WordArith

noncomputable section

open scoped BigOperators

namespace Cert.VelRef

open Cert.ReferenceIdeal Cert.ReferenceIdeal.Gen Cert.ReferenceIdeal.ReadP Cert.VelSpec Idealize.ShloMosaic
  Idealize.ShloMosaic.ValueIdx

/-! ## A fold of `or` over decided bits -/

/-- The `or`, from the bit `0`, of the bits of `p k` over the members `k` of a finite set is the bit of "some member
    satisfies `p`". Induction on the set: over the empty set both sides are `0`; inserting `a` puts `p a ∨ ·` on both. -/
theorem fold_ori_ofBool {ι : Type} [DecidableEq ι] (s : Finset ι) (p : ι → Prop) [DecidablePred p] :
    s.fold IntOp.ori 0#1 (fun k => BitVec.ofBool (decide (p k))) = BitVec.ofBool (decide (∃ k ∈ s, p k)) := by
  induction s using Finset.induction_on with
  | empty => simp
  | insert a s ha ih =>
    rw [Finset.fold_insert ha, ih, WordArith.ori_ofBool]
    congr 1
    simp [Finset.exists_mem_insert]

/-- Over a whole finite type: the bit of `∃ k, p k`. -/
theorem fold_ori_univ {ι : Type} [Fintype ι] [DecidableEq ι] (p : ι → Prop) [DecidablePred p] :
    (Finset.univ : Finset ι).fold IntOp.ori 0#1 (fun k => BitVec.ofBool (decide (p k)))
      = BitVec.ofBool (decide (∃ k, p k)) := by
  rw [fold_ori_ofBool]
  congr 1
  simp

/-! ## The condition: one bit per point -/

/-- Removing axis 1 of `[1048576, 3]` leaves `[1048576]`. -/
theorem red13 : S1048576x3.Reduces [1] S1048576 := by decide

/-- Entry `(n, k)` of the slice (the first three columns) is entry `(n, k)` of the input, `k` counted among four columns. -/
theorem idx_v0_eq (n : Fin 1048576) (k : Fin 3) : idx_main_v0 (ix2 n k) = ix2 n k.castSucc :=
  funext fun a => Fin.ext (by match a with | ⟨0, _⟩ => rfl | ⟨1, _⟩ => rfl)

/-- The index over point `n` with coordinate `k` inserted on the reduced axis is `(n, k)`. -/
theorem lift_eq (n : Fin 1048576) (k : Fin 3) : red13.lift (ix1 n) k = ix2 n k :=
  funext fun a => Fin.ext (by match a with | ⟨0, _⟩ => rfl | ⟨1, _⟩ => rfl)

/-- Entry `(n, k)` of the array that is reduced: the bit of "coordinate `k` of point `n` is below the lower bound or
    above the upper bound". The two comparisons are the bits of the two decided inequalities (the bounds are broadcast
    constants, read as their words), and the `or` of two such bits is the bit of the disjunction. -/
theorem bit_elem (x0 : (⟨S1048576x4, .f32⟩ : BufTy).Contents (Elt Ideal)) (n : Fin 1048576) (k : Fin 3) :
    val_main_v5 (F := Ideal) x0 (ix2 n k)
      = BitVec.ofBool (decide (x0 (ix2 n k.castSucc) < Ideal.ofBits .f32 0xBF83D70A#32
          ∨ Ideal.ofBits .f32 0x3F83D70A#32 < x0 (ix2 n k.castSucc))) := by
  rw [val_main_v5_apply, val_main_v2_apply, val_main_v4_apply, val_main_v0_apply, val_main_v1_apply, val_main_v3_apply,
    val_main_cst_apply, val_main_cst_0_apply, idx_v0_eq, Ideal.ofBits_def, Ideal.ofBits_def]
  refine (WordArith.ori_ofBool (decide (x0 (ix2 n k.castSucc) < Ideal.ofBits .f32 0xBF83D70A#32))
    (decide (Ideal.ofBits .f32 0x3F83D70A#32 < x0 (ix2 n k.castSucc)))).trans ?_
  rw [Bool.decide_or]

/-- The reduction by `or` over the three coordinates of point `n` is the outside bit: `or` commutes and associates, so
    the reduction is the fold, from the initial bit `0`, over `k : Fin 3` of the entries `(n, k)`; each entry is the bit
    of a decided statement about coordinate `k`, so the fold is the bit of "some coordinate satisfies it". -/
theorem mask_bit (x0 : (⟨S1048576x4, .f32⟩ : BufTy).Contents (Elt Ideal)) (n : Fin 1048576) :
    val_main_v6 (F := Ideal) x0 (ix1 n) = outsideBit x0 n := by
  unfold val_main_v6
  rw [Host.reduce_eq_fold_single IntOp.ori _ _ reducesTo_S1048576x3_S1048576_d1 red13 h_S_ (ix1 n)]
  have e : (val_main_v5 (F := Ideal) x0 ∘ red13.lift (ix1 n))
      = fun k : Fin 3 => BitVec.ofBool (decide (x0 (ix2 n k.castSucc) < Ideal.ofBits .f32 0xBF83D70A#32
          ∨ Ideal.ofBits .f32 0x3F83D70A#32 < x0 (ix2 n k.castSucc))) :=
    funext fun (k : Fin 3) => (congrArg (val_main_v5 (F := Ideal) x0) (lift_eq n k)).trans (bit_elem x0 n k)
  rw [e, val_main_c_apply]
  unfold outsideBit
  exact (fold_ori_univ (fun k : Fin 3 => x0 (ix2 n k.castSucc) < Ideal.ofBits .f32 0xBF83D70A#32
          ∨ Ideal.ofBits .f32 0x3F83D70A#32 < x0 (ix2 n k.castSucc))).trans
    (congrArg BitVec.ofBool (decide_eq_decide.mpr Iff.rfl))

/-- The bit is broadcast along the three columns: index `(n, c)` of the condition reads the bit of point `n`. -/
theorem idx_mask_eq (n : Fin 1048576) (c : Fin 3) : idx_main_v17 (idx_main_call0_v0 (ix2 n c)) = ix1 n :=
  funext fun a => Fin.ext (by match a with | ⟨0, _⟩ => rfl)

/-! ## The velocity -/

/-- Term `k` of the second product at `(n, c)` reads the hidden array at `(n, k)` … -/
theorem lidx13_eq (n : Fin 1048576) (c : Fin 3) (k : Fin 64) : lidx_main_v13 (ix2 n c) k = ix2 n k :=
  funext fun a => Fin.ext (by match a with | ⟨0, _⟩ => rfl | ⟨1, _⟩ => rfl)

/-- … and the output weights at `(k, c)`. -/
theorem ridx13_eq (n : Fin 1048576) (c : Fin 3) (k : Fin 64) : ridx_main_v13 (ix2 n c) k = ix2 k c :=
  funext fun a => Fin.ext (by match a with | ⟨0, _⟩ => rfl | ⟨1, _⟩ => rfl)

/-- Term `j` of the first product at `(n, k)` reads the input at `(n, j)` … -/
theorem lidx7_eq (n : Fin 1048576) (k : Fin 64) (j : Fin 4) : lidx_main_v7 (ix2 n k) j = ix2 n j :=
  funext fun a => Fin.ext (by match a with | ⟨0, _⟩ => rfl | ⟨1, _⟩ => rfl)

/-- … and the hidden weights at `(j, k)`. -/
theorem ridx7_eq (n : Fin 1048576) (k : Fin 64) (j : Fin 4) : ridx_main_v7 (ix2 n k) j = ix2 j k :=
  funext fun a => Fin.ext (by match a with | ⟨0, _⟩ => rfl | ⟨1, _⟩ => rfl)

/-- The hidden bias, broadcast to a row and then down the rows, reads at `(n, k)` its entry `k`. -/
theorem idx89_eq (n : Fin 1048576) (k : Fin 64) : idx_main_v8 (idx_main_v9 (ix2 n k)) = ix1 k :=
  funext fun a => Fin.ext (by match a with | ⟨0, _⟩ => rfl)

/-- The output bias, broadcast the same way, reads at `(n, c)` its entry `c`. -/
theorem idx1415_eq (n : Fin 1048576) (c : Fin 3) : idx_main_v14 (idx_main_v15 (ix2 n c)) = ix1 c :=
  funext fun a => Fin.ext (by match a with | ⟨0, _⟩ => rfl)

/-- The hidden array at `(n, k)` is `max (∑ j, x (n, j) · W1 (j, k) + b1 k) 0`. -/
theorem hidden_eq (x0 : (⟨S1048576x4, .f32⟩ : BufTy).Contents (Elt Ideal)) (x1 : (⟨S4x64, .f32⟩ : BufTy).Contents (Elt Ideal))
    (x2 : (⟨S64, .f32⟩ : BufTy).Contents (Elt Ideal)) (n : Fin 1048576) (k : Fin 64) :
    val_main_v12 (F := Ideal) x0 x1 x2 (ix2 n k) = VelSpec.hidden x0 x1 x2 n k := by
  rw [val_main_v12_apply, val_main_v10_apply, val_main_v7_apply, val_main_v9_apply, val_main_v8_apply, val_main_v11_apply,
    val_main_cst_1_apply, idx89_eq, Ideal.maximumf_def, Ideal.addf_def, Ideal.ofBits_def]
  unfold VelSpec.hidden
  simp only [lidx7_eq, ridx7_eq]

/-- The array before the select at `(n, c)` is `∑ k, hidden (n, k) · W2 (k, c) + b2 c`. -/
theorem vel_eq (x0 : (⟨S1048576x4, .f32⟩ : BufTy).Contents (Elt Ideal)) (x1 : (⟨S4x64, .f32⟩ : BufTy).Contents (Elt Ideal))
    (x2 : (⟨S64, .f32⟩ : BufTy).Contents (Elt Ideal)) (x3 : (⟨S64x3, .f32⟩ : BufTy).Contents (Elt Ideal))
    (x4 : (⟨S3, .f32⟩ : BufTy).Contents (Elt Ideal)) (n : Fin 1048576) (c : Fin 3) :
    val_main_v16 (F := Ideal) x0 x1 x2 x3 x4 (ix2 n c) = VelSpec.vel x0 x1 x2 x3 x4 n c := by
  rw [val_main_v16_apply, val_main_v13_apply, val_main_v15_apply, val_main_v14_apply, idx1415_eq, Ideal.addf_def]
  unfold VelSpec.vel
  simp only [lidx13_eq, ridx13_eq, hidden_eq]

/-! ## The reference is the specification -/

/-- At every index `(n, c)` the reference's result is the select, on the outside bit of point `n`, between zero and the
    velocity of point `n` in column `c`. -/
theorem ref_eq (x0 : (⟨S1048576x4, .f32⟩ : BufTy).Contents (Elt Ideal)) (x1 : (⟨S4x64, .f32⟩ : BufTy).Contents (Elt Ideal))
    (x2 : (⟨S64, .f32⟩ : BufTy).Contents (Elt Ideal)) (x3 : (⟨S64x3, .f32⟩ : BufTy).Contents (Elt Ideal))
    (x4 : (⟨S3, .f32⟩ : BufTy).Contents (Elt Ideal)) :
    Cert.ReferenceIdeal.ReadP.val_main_v18 (F := Ideal) x0 x1 x2 x3 x4 = Cert.VelSpec.G x0 x1 x2 x3 x4 := by
  funext i
  obtain ⟨n, c, rfl⟩ : ∃ (n : Fin 1048576) (c : Fin 3), i = ix2 n c := ⟨i 0, i 1, eq_ix2 i⟩
  rw [G_apply, val_main_v18_apply, val_main_call0_v0_apply, val_main_v17_apply, idx_mask_eq, mask_bit,
    val_main_call0_v1_apply, val_main_cst_2_apply, Ideal.ofBits_def, vel_eq]

end Cert.VelRef

end
-- ==== Proof.BodyLaw.lean ====
/-
  The coordinate-major spelling of the velocity field, and that it is the same function.

  The kernel works on the transposed data: a block `x` of shape `[4, B]` holds the four coordinates of `B` points as
  rows, the weights are `W1ᵀ [64, 4]` and `W2ᵀ [3, 64]`, the biases are columns `[64, 1]` and `[3, 1]`, and an `[8, 4]`
  array `g` whose every row is `(1, 1, 1, 0)` sums the excesses of the first three coordinates. `bodyAt` is what it
  computes for output row `c` and column `l` of a block.

  `bodyAt_eq_G`: when the block's column `l` is point `n` (and the other operands are the transposes and columns of
  the reference's), `bodyAt` at `(c, l)` is `G` at `(n, c)`. The mask is `outside_by_excess`; each product
  `Wᵀ (c, k) · h k` is `h k · W (k, c)` because multiplication of extended reals commutes; the sums range over the same
  index sets.
-/
import proofs.«179525_g24309514896055_cont_9to1_421_22_alg».proof.Proof.Spec

noncomputable section

open scoped BigOperators

namespace Cert.VelSpec

open Idealize.ShloMosaic Idealize.ShloMosaic.ValueIdx

/-- Row `c`, column `l` of what the kernel stores for a block: zero where the weighted sum of the excesses is positive,
    else `∑ k, W2ᵀ (c, k) · max (∑ j, W1ᵀ (k, j) · x (j, l) + b1 (k, 0)) 0 + b2 (c, 0)`. -/
def bodyAt (x : FVec Ideal ⟨2, ![4, 131072]⟩ .f32) (g : FVec Ideal ⟨2, ![8, 4]⟩ .f32) (w1t : FVec Ideal ⟨2, ![64, 4]⟩ .f32)
    (b1c : FVec Ideal ⟨2, ![64, 1]⟩ .f32) (w2t : FVec Ideal ⟨2, ![3, 64]⟩ .f32) (b2c : FVec Ideal ⟨2, ![3, 1]⟩ .f32)
    (c : Fin 3) (l : Fin 131072) : EReal :=
  Scalar.select
    (Ideal.cmp .ogt
      (∑ j : Fin 4, g (ix2 (c.castLE (by decide)) j)
        * max (max (x (ix2 j l)) (-(x (ix2 j l))) - Ideal.ofBits .f32 0x3F83D70A#32) (Ideal.ofBits .f32 0x00000000#32))
      (Ideal.ofBits .f32 0x00000000#32))
    (Ideal.ofBits .f32 0x00000000#32)
    ((∑ k : Fin 64, w2t (ix2 c k)
        * max ((∑ j : Fin 4, w1t (ix2 k j) * x (ix2 j l)) + b1c (ix2 k 0)) (Ideal.ofBits .f32 0x00000000#32))
      + b2c (ix2 c 0))

/-- On the transposed data the kernel's formula at `(c, l)` is the velocity field at `(n, c)`. -/
theorem bodyAt_eq_G (xt : FVec Ideal ⟨2, ![1048576, 4]⟩ .f32) (W1 : FVec Ideal ⟨2, ![4, 64]⟩ .f32) (b1 : FVec Ideal ⟨1, ![64]⟩ .f32)
    (W2 : FVec Ideal ⟨2, ![64, 3]⟩ .f32) (b2 : FVec Ideal ⟨1, ![3]⟩ .f32)
    (x : FVec Ideal ⟨2, ![4, 131072]⟩ .f32) (g : FVec Ideal ⟨2, ![8, 4]⟩ .f32) (w1t : FVec Ideal ⟨2, ![64, 4]⟩ .f32)
    (b1c : FVec Ideal ⟨2, ![64, 1]⟩ .f32) (w2t : FVec Ideal ⟨2, ![3, 64]⟩ .f32) (b2c : FVec Ideal ⟨2, ![3, 1]⟩ .f32)
    (n : Fin 1048576) (c : Fin 3) (l : Fin 131072)
    (hx : ∀ j : Fin 4, x (ix2 j l) = xt (ix2 n j))
    (hg0 : ∀ r : Fin 8, g (ix2 r 0) = Ideal.ofBits .f32 0x3F800000#32)
    (hg1 : ∀ r : Fin 8, g (ix2 r 1) = Ideal.ofBits .f32 0x3F800000#32)
    (hg2 : ∀ r : Fin 8, g (ix2 r 2) = Ideal.ofBits .f32 0x3F800000#32)
    (hg3 : ∀ r : Fin 8, g (ix2 r 3) = Ideal.ofBits .f32 0x00000000#32)
    (hw1 : ∀ (k : Fin 64) (j : Fin 4), w1t (ix2 k j) = W1 (ix2 j k))
    (hb1 : ∀ k : Fin 64, b1c (ix2 k 0) = b1 (ix1 k))
    (hw2 : ∀ (c : Fin 3) (k : Fin 64), w2t (ix2 c k) = W2 (ix2 k c))
    (hb2 : ∀ c : Fin 3, b2c (ix2 c 0) = b2 (ix1 c)) :
    bodyAt x g w1t b1c w2t b2c c l = G xt W1 b1 W2 b2 (ix2 n c) := by
  have hmask : Ideal.cmp .ogt
      (∑ j : Fin 4, g (ix2 (c.castLE (by decide)) j)
        * max (max (x (ix2 j l)) (-(x (ix2 j l))) - Ideal.ofBits .f32 0x3F83D70A#32) (Ideal.ofBits .f32 0x00000000#32))
      (Ideal.ofBits .f32 0x00000000#32) = outsideBit xt n := by
    refine (outside_by_excess (fun j => x (ix2 j l)) (fun j => g (ix2 (c.castLE (by decide)) j))
      (Ideal.ofBits .f32 0x3F83D70A#32) (Ideal.ofBits .f32 0xBF83D70A#32) (Ideal.ofBits .f32 0x00000000#32)
      ((hg0 _).trans ofBits_one) ((hg1 _).trans ofBits_one) ((hg2 _).trans ofBits_one) ((hg3 _).trans ofBits_zero)
      ofBits_zero ofBits_lo).trans ?_
    unfold outsideBit
    simp only [hx]
  have hhid : ∀ k : Fin 64,
      max ((∑ j : Fin 4, w1t (ix2 k j) * x (ix2 j l)) + b1c (ix2 k 0)) (Ideal.ofBits .f32 0x00000000#32)
        = hidden xt W1 b1 n k := fun k => by
    unfold hidden
    rw [hb1]
    congr 2
    exact Finset.sum_congr rfl fun j _ => by rw [hw1, hx, mul_comm]
  have hvel : (∑ k : Fin 64, w2t (ix2 c k)
        * max ((∑ j : Fin 4, w1t (ix2 k j) * x (ix2 j l)) + b1c (ix2 k 0)) (Ideal.ofBits .f32 0x00000000#32))
      + b2c (ix2 c 0) = vel xt W1 b1 W2 b2 n c := by
    unfold vel
    rw [hb2]
    congr 1
    exact Finset.sum_congr rfl fun k _ => by rw [hhid, hw2, mul_comm]
  rw [G_apply]
  unfold bodyAt
  rw [hmask, hvel]

end Cert.VelSpec

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.KPayload.lean ====
/-
  The kernel body's stored value, read at one entry.

  The body takes a block `x` of shape `[4, 131072]` (the four coordinates of 131072 points, one coordinate per row), an
  `[8, 4]` array `g`, the weights `W1ᵀ [64, 4]` and `W2ᵀ [3, 64]` and the bias columns `b1 [64, 1]` and `b2 [3, 1]`, and
  stores a `[3, 131072]` array. Its entry at row `c` and column `l` is

      0                                                                             if  ∑ j, g (c, j) · max (|x (j, l)| − hi) 0  >  0,
      ∑ k, W2ᵀ (c, k) · max (∑ j, W1ᵀ (k, j) · x (j, l) + b1 (k, 0)) 0 + b2 (c, 0)    otherwise,

  where `|t|` is `max t (−t)` and `hi` is the constant 1.03, kept as the word that encodes it. That is `bodyAt`;
  `pay_apply` says the stored array read at `(c, l)` is `bodyAt` at `c`, `l`.

  Every operation of the body acts entry by entry, except:
  * four reshapes of an array to its own shape, which are the identity;
  * three matrix products into the zero accumulator, each with the plain dimension numbers (the left operand's columns
    contracted with the right operand's rows): each is the product rows by columns, whose entry `(r, q)` is the finite
    sum over `k` of `a (r, k) · b (k, q)` (`mm8`, `mm64`, `mm3`, `rowsByCols_ix2`);
  * two broadcasts of a column `[a, 1]` along its unit axis, which read at `(r, q)` the column's entry `(r, 0)`;
  * one slice, rows 0 to 2 of the `[8, 131072]` product, which reads at `(c, l)` the product's entry `(c, l)`, `c`
    taken as a row number below 8 (`rows3_apply`).

  The proof first rewrites the whole arrays (the reshapes dropped, the products written rows by columns), then reads the
  result at `(c, l)`: the select, the comparison, the sums, the maxima, the difference and the absolute value read entry
  by entry by definition, the slice and the two broadcasts by their lemmas, and the two sums that remain agree term by
  term (`excess_apply` for the mask's sum, `hidden_apply` for the hidden layer inside the output's sum).
-/
import proofs.«179525_g24309514896055_cont_9to1_421_22_alg».proof.Proof.Gen.KernelIdeal.Skeleton
import proofs.«179525_g24309514896055_cont_9to1_421_22_alg».proof.Proof.BodyLaw
import proofs.«179525_g24309514896055_cont_9to1_421_22_alg».proof.Proof.LibPlainProduct
import proofs.«179525_g24309514896055_cont_9to1_421_22_alg».proof.Proof.LibLayout
import Idealize.ShloMosaic.Lib.Pipeline.Value

noncomputable section

open scoped BigOperators

namespace Cert.KernelIdeal.Payload

open Cert.KernelIdeal Cert.KernelIdeal.Gen Cert.VelSpec Idealize.ShloMosaic Idealize.ShloMosaic.ValueIdx Idealize.ShloMosaic.PlainProduct

/-! ## The three matrix products

Each product's dimension numbers contract the left operand's axis 1 with the right operand's axis 0 and have no batch
axis: they are the plain ones for the operands' extents, so into the zero accumulator the product is rows by columns. -/

/-- `[8, 4]` by `[4, 131072]`, into zero: rows by columns. -/
theorem mm8 (a : FVec Ideal S8x4 .f32) (b : FVec Ideal S4x131072 .f32) :
    matmul dot_S8x4_S4x131072_S8x131072_1_0_0_1_n_n none a b (constant S8x131072 .f32 0x00000000#32) = rowsByCols a b :=
  matmul_zero_plain none a b

/-- `[64, 4]` by `[4, 131072]`, into zero: rows by columns. -/
theorem mm64 (a : FVec Ideal S64x4 .f32) (b : FVec Ideal S4x131072 .f32) :
    matmul dot_S64x4_S4x131072_S64x131072_1_0_0_1_n_n none a b (constant S64x131072 .f32 0x00000000#32) = rowsByCols a b :=
  matmul_zero_plain none a b

/-- `[3, 64]` by `[64, 131072]`, into zero: rows by columns. -/
theorem mm3 (a : FVec Ideal S3x64 .f32) (b : FVec Ideal S64x131072 .f32) :
    matmul dot_S3x64_S64x131072_S3x131072_1_0_0_1_n_n none a b (constant S3x131072 .f32 0x00000000#32) = rowsByCols a b :=
  matmul_zero_plain none a b

/-- The product rows by columns at row `r` and column `q`: the sum over `k` of `x (r, k) · w (k, q)`. -/
theorem rowsByCols_ix2 {M K N : Nat} {φ₁ φ₂ : FTy} (x : FVec Ideal ⟨2, ![M, K]⟩ φ₁) (w : FVec Ideal ⟨2, ![K, N]⟩ φ₂)
    (r : Fin M) (q : Fin N) : rowsByCols x w (ix2 r q) = ∑ k : Fin K, x (ix2 r k) * w (ix2 k q) := rfl

/-! ## The slice, and the two entrywise pieces inside the sums -/

/-- Rows 0 to 2 of an array of eight rows: entry `(c, l)` of the slice is entry `(c, l)` of the array, both offsets
    being zero. -/
theorem rows3_apply (V : FVec Ideal S8x131072 .f32) (c : Fin 3) (l : Fin 131072) :
    extractStridedSlice S3x131072 ![0, 0] V slices_S8x131072_o0_0_S3x131072 (ix2 c l) = V (ix2 (c.castLE (by decide)) l) :=
  extractStridedSlice_apply ![0, 0] V slices_S8x131072_o0_0_S3x131072 (ix2 c l) (ix2 (c.castLE (by decide)) l)
    (fun a => match a with
      | ⟨0, _⟩ => by show c.val = 0 + c.val; omega
      | ⟨1, _⟩ => by show l.val = 0 + l.val; omega)

/-- The excess of coordinate `j` of point `l` over the bound: `max (|x (j, l)| − hi) 0`, with `|t| = max t (−t)`. Every
    operation in it acts entry by entry. -/
theorem excess_apply (x0 : FVec Ideal S4x131072 .f32) (j : Fin 4) (l : Fin 131072) :
    maximumf (subf (absf x0) (broadcast S4x131072 (FloatOps.ofBits .f32 0x3F83D70A#32)))
        (broadcast S4x131072 (FloatOps.ofBits .f32 0x00000000#32)) (ix2 j l)
      = max (max (x0 (ix2 j l)) (-(x0 (ix2 j l))) - Ideal.ofBits .f32 0x3F83D70A#32) (Ideal.ofBits .f32 0x00000000#32) := rfl

/-- Unit `k` of the hidden layer at point `l`: `max (∑ j, W1ᵀ (k, j) · x (j, l) + b1 (k, 0)) 0`. The bias column is
    repeated along the points, so at `(k, l)` it reads its entry `(k, 0)`. -/
theorem hidden_apply (x0 : FVec Ideal S4x131072 .f32) (x1 : FVec Ideal S64x4 .f32) (x2 : FVec Ideal S64x1 .f32)
    (k : Fin 64) (l : Fin 131072) :
    maximumf (addf (rowsByCols x1 x0) (broadcastTo S64x131072 x2 broadcasts_S64x1_S64x131072))
        (broadcast S64x131072 (FloatOps.ofBits .f32 0x00000000#32)) (ix2 k l)
      = max ((∑ j : Fin 4, x1 (ix2 k j) * x0 (ix2 j l)) + x2 (ix2 k 0)) (Ideal.ofBits .f32 0x00000000#32) := by
  show max (rowsByCols x1 x0 (ix2 k l) + broadcastTo S64x131072 x2 broadcasts_S64x1_S64x131072 (ix2 k l))
      (Ideal.ofBits .f32 0x00000000#32) = _
  rw [Cert.LibLayout.broadcastTo_a1_ab_apply]
  rfl

/-! ## The stored value at an entry -/

/-- The array the body stores, read at row `c` and column `l`, is `bodyAt` there. -/
theorem pay_apply (x0 : Vec Ideal S4x131072 .f32) (x5 : Vec Ideal S8x4 .f32) (x1 : Vec Ideal S64x4 .f32) (x2 : Vec Ideal S64x1 .f32)
    (x3 : Vec Ideal S3x64 .f32) (x4 : Vec Ideal S3x1 .f32) (c : Fin 3) (l : Fin 131072) :
    Cert.KernelIdeal.Gen.k0_pay1 (F := Ideal) x0 x5 x1 x2 x3 x4 (ix2 c l) = Cert.VelSpec.bodyAt x0 x5 x1 x2 x3 x4 c l := by
  unfold Gen.k0_pay1
  -- whole arrays: the reshapes to the same shape go, the three products become sums rows by columns
  simp only [shapeCast_self, mm8, mm64, mm3]
  -- at the entry: select, comparison and sum read entry by entry
  show Scalar.select
      (Ideal.cmp .ogt (extractStridedSlice S3x131072 ![0, 0] (rowsByCols x5 _) slices_S8x131072_o0_0_S3x131072 (ix2 c l))
        (Ideal.ofBits .f32 0x00000000#32))
      (Ideal.ofBits .f32 0x00000000#32)
      (rowsByCols x3 _ (ix2 c l) + broadcastTo S3x131072 x4 broadcasts_S3x1_S3x131072 (ix2 c l)) = _
  -- the slice reads row `c` of the eight-row product, the output bias its entry `(c, 0)`
  rw [rows3_apply, Cert.LibLayout.broadcastTo_a1_ab_apply]
  unfold bodyAt
  -- what is left are the mask's sum and the output's sum, term by term
  refine congrArg₂ (fun m v => Scalar.select (Ideal.cmp .ogt m (Ideal.ofBits .f32 0x00000000#32))
    (Ideal.ofBits .f32 0x00000000#32) (v + x4 (ix2 c 0))) ?_ ?_
  · exact (rowsByCols_ix2 _ _ _ _).trans (Finset.sum_congr rfl fun j _ =>
      congrArg (x5 (ix2 (c.castLE (by decide)) j) * ·) (excess_apply x0 j l))
  · exact (rowsByCols_ix2 _ _ _ _).trans (Finset.sum_congr rfl fun k _ =>
      congrArg (x3 (ix2 c k) * ·) (hidden_apply x0 x1 x2 k l))

end Cert.KernelIdeal.Payload

end
-- ==== Proof.KHost.lean ====
/-
  What the kernel's six input windows stage: the arrays the host lines before the call write.

  The points are transposed to coordinate-major `[4, N]`, the two weight matrices are transposed, the two bias vectors
  become columns, and the `[8, 4]` array of weights `(1, 1, 1, 0)` per row is a constant row reshaped, repeated eight
  times and reshaped again. Each is read here as that operation of the argument arrays; nothing is computed.
-/
import proofs.«179525_g24309514896055_cont_9to1_421_22_alg».proof.Proof.Gen.KernelIdeal.Frame
import Idealize.ShloMosaic.Lib.StableHlo.Run
import Idealize.ShloMosaic.Lib.Pipeline.Value

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- Window 0's array: the points, coordinate-major. -/
theorem V_points (c : Dev nD) :
    (V m c main_v3 : (⟨S4x1048576, .f32⟩ : BufTy).Contents (Elt F)) = transpose S4x1048576 [1, 0] (m ((c : Thread nD τ).loc main_arg0)) transposes_S1048576x4_S4x1048576_1_0 := by
  show StableHlo.after hostOps0 (fun b => m (c, b)) (Proc.devRef .tc main_v3) = _
  after_results <;> rfl

/-- Window 1's array: the first weight matrix transposed. -/
theorem V_w1t (c : Dev nD) :
    (V m c main_v4 : (⟨S64x4, .f32⟩ : BufTy).Contents (Elt F)) = transpose S64x4 [1, 0] (m ((c : Thread nD τ).loc main_arg1)) transposes_S4x64_S64x4_1_0 := by
  show StableHlo.after hostOps0 (fun b => m (c, b)) (Proc.devRef .tc main_v4) = _
  after_results <;> rfl

/-- Window 2's array: the first bias as a column. -/
theorem V_b1c (c : Dev nD) :
    (V m c main_v5 : (⟨S64x1, .f32⟩ : BufTy).Contents (Elt F)) = shapeCast S64x1 (m ((c : Thread nD τ).loc main_arg2)) shapeCasts_S64_S64x1 := by
  show StableHlo.after hostOps0 (fun b => m (c, b)) (Proc.devRef .tc main_v5) = _
  after_results <;> rfl

/-- Window 3's array: the second weight matrix transposed. -/
theorem V_w2t (c : Dev nD) :
    (V m c main_v6 : (⟨S3x64, .f32⟩ : BufTy).Contents (Elt F)) = transpose S3x64 [1, 0] (m ((c : Thread nD τ).loc main_arg3)) transposes_S64x3_S3x64_1_0 := by
  show StableHlo.after hostOps0 (fun b => m (c, b)) (Proc.devRef .tc main_v6) = _
  after_results <;> rfl

/-- Window 4's array: the second bias as a column. -/
theorem V_b2c (c : Dev nD) :
    (V m c main_v7 : (⟨S3x1, .f32⟩ : BufTy).Contents (Elt F)) = shapeCast S3x1 (m ((c : Thread nD τ).loc main_arg4)) shapeCasts_S3_S3x1 := by
  show StableHlo.after hostOps0 (fun b => m (c, b)) (Proc.devRef .tc main_v7) = _
  after_results <;> rfl

/-- Window 5's array: the constant row `(1, 1, 1, 0)` repeated down eight rows. -/
theorem V_ones (c : Dev nD) :
    (V m c main_v2 : (⟨S8x4, .f32⟩ : BufTy).Contents (Elt F)) = shapeCast S8x4 (broadcastInDim S8x1x1x4 ![0, 1, 2, 3] bcast_S1x1x1x4_S8x1x1x4_0_1_2_3
      (shapeCast S1x1x1x4 (fun i => FloatOps.ofBits .f32 (lit0 (S1x4.rowMajor i))) shapeCasts_S1x4_S1x1x1x4)) shapeCasts_S8x1x1x4_S8x4 := by
  show StableHlo.after hostOps0 (fun b => m (c, b)) (Proc.devRef .tc main_v2) = _
  after_results <;> rfl

end Cert.KernelIdeal.HostSide

end
-- ==== Proof.KWindows.lean ====
/-
  The kernel's input arrays read at one entry.

  The points array is coordinate-major: entry `(j, n)` is coordinate `j` of point `n`. The transposed weight matrices
  read `(k, j) ↦ W1 (j, k)` and `(c, k) ↦ W2 (k, c)`; the bias columns read `(k, 0) ↦ b1 k` and `(c, 0) ↦ b2 c`. The
  `[8, 4]` array of weights holds, in every row, the constant row's entry of that column: a reshape keeps the row-major
  position (`(r, 0, 0, j)` and `(r, j)` are both at `4 r + j`; `(0, 0, 0, j)` and `(0, j)` both at `j`), and the
  repetition down the first axis forgets `r`.
-/
import proofs.«179525_g24309514896055_cont_9to1_421_22_alg».proof.Proof.KHost
import proofs.«179525_g24309514896055_cont_9to1_421_22_alg».proof.Proof.LibLayout
import Idealize.ShloMosaic.Lib.ValueIdx

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ)

/-- Coordinate `j` of point `n`. -/
theorem V_points_apply (c : Dev nD) (j : Fin 4) (n : Fin 1048576) :
    (V m c main_v3 : (⟨S4x1048576, .f32⟩ : BufTy).Contents (Elt F)) (ix2 j n)
      = (m ((c : Thread nD τ).loc main_arg0) : (⟨S1048576x4, .f32⟩ : BufTy).Contents (Elt F)) (ix2 n j) := by
  rw [V_points]
  exact transpose_apply [1, 0] _ transposes_S1048576x4_S4x1048576_1_0 (ix2 j n) (ix2 n j) (fun b => match b with
    | ⟨0, _⟩ => rfl
    | ⟨1, _⟩ => rfl)

/-- `W1ᵀ (k, j) = W1 (j, k)`. -/
theorem V_w1t_apply (c : Dev nD) (k : Fin 64) (j : Fin 4) :
    (V m c main_v4 : (⟨S64x4, .f32⟩ : BufTy).Contents (Elt F)) (ix2 k j)
      = (m ((c : Thread nD τ).loc main_arg1) : (⟨S4x64, .f32⟩ : BufTy).Contents (Elt F)) (ix2 j k) := by
  rw [V_w1t]
  exact transpose_apply [1, 0] _ transposes_S4x64_S64x4_1_0 (ix2 k j) (ix2 j k) (fun b => match b with
    | ⟨0, _⟩ => rfl
    | ⟨1, _⟩ => rfl)

/-- The first bias column: `(k, 0) ↦ b1 k`. -/
theorem V_b1c_apply (c : Dev nD) (k : Fin 64) :
    (V m c main_v5 : (⟨S64x1, .f32⟩ : BufTy).Contents (Elt F)) (ix2 k (0 : Fin 1))
      = (m ((c : Thread nD τ).loc main_arg2) : (⟨S64, .f32⟩ : BufTy).Contents (Elt F)) (ix1 k) := by
  rw [V_b1c]
  exact Cert.LibLayout.shapeCast_a_a1_apply _ shapeCasts_S64_S64x1 k 0

/-- `W2ᵀ (c, k) = W2 (k, c)`. -/
theorem V_w2t_apply (c : Dev nD) (o : Fin 3) (k : Fin 64) :
    (V m c main_v6 : (⟨S3x64, .f32⟩ : BufTy).Contents (Elt F)) (ix2 o k)
      = (m ((c : Thread nD τ).loc main_arg3) : (⟨S64x3, .f32⟩ : BufTy).Contents (Elt F)) (ix2 k o) := by
  rw [V_w2t]
  exact transpose_apply [1, 0] _ transposes_S64x3_S3x64_1_0 (ix2 o k) (ix2 k o) (fun b => match b with
    | ⟨0, _⟩ => rfl
    | ⟨1, _⟩ => rfl)

/-- The second bias column: `(c, 0) ↦ b2 c`. -/
theorem V_b2c_apply (c : Dev nD) (o : Fin 3) :
    (V m c main_v7 : (⟨S3x1, .f32⟩ : BufTy).Contents (Elt F)) (ix2 o (0 : Fin 1))
      = (m ((c : Thread nD τ).loc main_arg4) : (⟨S3, .f32⟩ : BufTy).Contents (Elt F)) (ix1 o) := by
  rw [V_b2c]
  exact Cert.LibLayout.shapeCast_a_a1_apply _ shapeCasts_S3_S3x1 o 0

/-- Every row of the weights array is the constant row. -/
theorem V_ones_apply (c : Dev nD) (r : Fin 8) (j : Fin 4) :
    (V m c main_v2 : (⟨S8x4, .f32⟩ : BufTy).Contents (Elt F)) (ix2 r j) = FloatOps.ofBits .f32 (lit0 j) := by
  rw [V_ones]
  refine (shapeCast_apply _ shapeCasts_S8x1x1x4_S8x4 (ix2 r j) (ix4 r (0 : Fin 1) (0 : Fin 1) j) (by
    rw [Shape.rowMajor_val_four, Shape.rowMajor_val_two]
    show ((r.val * 1 + 0) * 1 + 0) * 4 + j.val = r.val * 4 + j.val
    omega)).trans ?_
  refine (broadcastInDim_apply _ bcast_S1x1x1x4_S8x1x1x4_0_1_2_3 _ (ix4 r (0 : Fin 1) (0 : Fin 1) j)
    (ix4 (0 : Fin 1) (0 : Fin 1) (0 : Fin 1) j) (fun a => match a with
      | ⟨0, _⟩ => rfl
      | ⟨1, _⟩ => rfl
      | ⟨2, _⟩ => rfl
      | ⟨3, _⟩ => rfl)).trans ?_
  refine (shapeCast_apply _ shapeCasts_S1x4_S1x1x1x4 (ix4 (0 : Fin 1) (0 : Fin 1) (0 : Fin 1) j) (ix2 (0 : Fin 1) j) (by
    rw [Shape.rowMajor_val_two, Shape.rowMajor_val_four]
    show 0 * 4 + j.val = ((0 * 1 + 0) * 1 + 0) * 4 + j.val
    omega)).trans ?_
  show FloatOps.ofBits .f32 (lit0 (S1x4.rowMajor (ix2 (0 : Fin 1) j))) = _
  congr 2
  apply Fin.ext
  rw [Shape.rowMajor_val_two]
  show 0 * 4 + j.val = j.val
  omega

end Cert.KernelIdeal.HostSide

end
-- ==== Proof.KBlocks.lean ====
/-
  The kernel's output array after the run: the velocity field, coordinate-major.

  The region's output `[3, N]` is written one block of `B = 131072` columns per grid point: point `t` stages columns
  `t · B … t · B + B - 1` of the points array, the five small operands whole, and writes back columns `t · B …` of the
  output. Column `l` of block `t` is point `t · B + l`, so what point `t` writes back is block `t` of ONE function of
  the argument arrays: `GT (c, n) = G (n, c)`. The eight blocks cover the array (column `n` lies in block `n / B`),
  hence the array ends at `GT`.

  That the stored value, read at one entry, is the formula `bodyAt` is taken here as a hypothesis (`PayFact`); it is a
  statement about the body's arithmetic alone and is proved apart from the blocks.
-/
import proofs.«179525_g24309514896055_cont_9to1_421_22_alg».proof.Proof.Gen.KernelIdeal.Frame
import proofs.«179525_g24309514896055_cont_9to1_421_22_alg».proof.Proof.KWindows
import proofs.«179525_g24309514896055_cont_9to1_421_22_alg».proof.Proof.BodyLaw
import Idealize.ShloMosaic.Lib.Pipeline.Value
import Idealize.ShloMosaic.PureOps.Ideal

set_option maxRecDepth 16384

noncomputable section

namespace Cert.KernelIdeal.Blocks

open Cert.KernelIdeal Cert.KernelIdeal.Gen Cert.VelSpec Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The result with its two axes exchanged: `GT (c, n) = G (n, c)`. -/
def GT (xt : FVec Ideal ⟨2, ![1048576, 4]⟩ .f32) (W1 : FVec Ideal ⟨2, ![4, 64]⟩ .f32) (b1 : FVec Ideal ⟨1, ![64]⟩ .f32)
    (W2 : FVec Ideal ⟨2, ![64, 3]⟩ .f32) (b2 : FVec Ideal ⟨1, ![3]⟩ .f32) : FVec Ideal ⟨2, ![3, 1048576]⟩ .f32 :=
  fun i => G xt W1 b1 W2 b2 (ix2 (i 1) (i 0))

/-- The body's stored value at row `c`, column `l` is `bodyAt` of the loaded blocks. -/
def PayFact : Prop :=
  ∀ (x0 : Vec Ideal S4x131072 .f32) (x5 : Vec Ideal S8x4 .f32) (x1 : Vec Ideal S64x4 .f32) (x2 : Vec Ideal S64x1 .f32)
    (x3 : Vec Ideal S3x64 .f32) (x4 : Vec Ideal S3x1 .f32) (o : Fin 3) (l : Fin 131072),
    k0_pay1 (F := Ideal) x0 x5 x1 x2 x3 x4 (ix2 o l) = bodyAt x0 x5 x1 x2 x3 x4 o l

/-- Column `l` of block `T` is point `T · B + l`. -/
def pt (T : Nat) (hT : T < 8) (l : Fin 131072) : Fin 1048576 := ⟨T * 131072 + l.val, by have := l.isLt; omega⟩

/-- One entry of a block, from what the block's operands hold. -/
theorem entry_of_block (hpay : PayFact) (xt : FVec Ideal ⟨2, ![1048576, 4]⟩ .f32) (W1 : FVec Ideal ⟨2, ![4, 64]⟩ .f32)
    (b1 : FVec Ideal ⟨1, ![64]⟩ .f32) (W2 : FVec Ideal ⟨2, ![64, 3]⟩ .f32) (b2 : FVec Ideal ⟨1, ![3]⟩ .f32)
    (x0 : Vec Ideal S4x131072 .f32) (x5 : Vec Ideal S8x4 .f32) (x1 : Vec Ideal S64x4 .f32) (x2 : Vec Ideal S64x1 .f32)
    (x3 : Vec Ideal S3x64 .f32) (x4 : Vec Ideal S3x1 .f32) (T : Nat) (hT : T < 8)
    (hx : ∀ (j : Fin 4) (l : Fin 131072), x0 (ix2 j l) = xt (ix2 (pt T hT l) j))
    (hg : ∀ (r : Fin 8) (j : Fin 4), x5 (ix2 r j) = Ideal.ofBits .f32 (lit0 j))
    (hw1 : ∀ (k : Fin 64) (j : Fin 4), x1 (ix2 k j) = W1 (ix2 j k))
    (hb1 : ∀ k : Fin 64, x2 (ix2 k (0 : Fin 1)) = b1 (ix1 k))
    (hw2 : ∀ (o : Fin 3) (k : Fin 64), x3 (ix2 o k) = W2 (ix2 k o))
    (hb2 : ∀ o : Fin 3, x4 (ix2 o (0 : Fin 1)) = b2 (ix1 o))
    (o : Fin 3) (l : Fin 131072) :
    k0_pay1 (F := Ideal) x0 x5 x1 x2 x3 x4 (ix2 o l) = G xt W1 b1 W2 b2 (ix2 (pt T hT l) o) :=
  (hpay x0 x5 x1 x2 x3 x4 o l).trans
    (bodyAt_eq_G xt W1 b1 W2 b2 x0 x5 x1 x2 x3 x4 (pt T hT l) o l (fun j => hx j l) (fun r => hg r 0) (fun r => hg r 1)
      (fun r => hg r 2) (fun r => hg r 3) hw1 hb1 hw2 hb2)

theorem hz : (![0, 0] : Fin 2 → Nat) = fun _ => 0 := funext fun a => by fin_cases a <;> rfl

/-- The printed index maps, decided over the grid: the points block and the output block move with the point along the
    second axis; the five small operands stay at block `(0, 0)`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- WHAT POINT `t` WRITES BACK is block `t` of `GT` of the argument arrays. -/
theorem flushed_eq (hpay : PayFact) (c : Dev nD) (t : Fin cfg0.N) :
    (dats m 0 c).flushed 6 t = ((cfg0.win 6).blk t).view.read (Elt Ideal) (GT (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 6).cut (grid0.coords t) ((dats m 0 c).after 6 t) = _
  rw [after0_6]
  unfold out0_6
  rw [View.canon_unit_zero hz]
  simp only [View.ld_unit_zero (S := S4x131072) hz, View.ld_unit_zero (S := S8x4) hz, View.ld_unit_zero (S := S64x4) hz,
    View.ld_unit_zero (S := S64x1) hz, View.ld_unit_zero (S := S3x64) hz, View.ld_unit_zero (S := S3x1) hz]
  obtain ⟨e00, e01, e10, e11, e20, e21, e30, e31, e40, e41, e50, e51, e60, e61⟩ := idx_facts t
  have hT : t.val < 8 := lt_of_lt_of_eq t.isLt N_0
  have hx : ∀ (j : Fin 4) (l : Fin 131072), iblk m c 0 t (ix2 j l) = (m ((c : Thread nD τ).loc main_arg0)) (ix2 (pt t.val hT l) j) := by
    intro j l
    show V m c main_v3 (((cfg0.win 0).blk t).view.emb (ix2 j l)) = _
    have he : ((cfg0.win 0).blk t).view.emb (ix2 j l) = ix2 j (pt t.val hT l) := by
      funext a; apply Fin.ext
      match a with
      | ⟨0, _⟩ => show win0_0.index t (0 : Fin 2) * 4 + 1 * j.val = j.val; rw [e00]; omega
      | ⟨1, _⟩ => show win0_0.index t (1 : Fin 2) * 131072 + 1 * l.val = t.val * 131072 + l.val; rw [e01]; omega
    rw [he]
    exact HostSide.V_points_apply m c j (pt t.val hT l)
  have hg : ∀ (r : Fin 8) (j : Fin 4), iblk m c 5 t (ix2 r j) = Ideal.ofBits .f32 (lit0 j) := by
    intro r j
    show V m c main_v2 (((cfg0.win 5).blk t).view.emb (ix2 r j)) = _
    have he : ((cfg0.win 5).blk t).view.emb (ix2 r j) = ix2 r j := by
      funext a; apply Fin.ext
      match a with
      | ⟨0, _⟩ => show win0_5.index t (0 : Fin 2) * 8 + 1 * r.val = r.val; rw [e50]; omega
      | ⟨1, _⟩ => show win0_5.index t (1 : Fin 2) * 4 + 1 * j.val = j.val; rw [e51]; omega
    rw [he]
    exact HostSide.V_ones_apply m c r j
  have hw1 : ∀ (k : Fin 64) (j : Fin 4), iblk m c 1 t (ix2 k j) = (m ((c : Thread nD τ).loc main_arg1)) (ix2 j k) := by
    intro k j
    show V m c main_v4 (((cfg0.win 1).blk t).view.emb (ix2 k j)) = _
    have he : ((cfg0.win 1).blk t).view.emb (ix2 k j) = ix2 k j := by
      funext a; apply Fin.ext
      match a with
      | ⟨0, _⟩ => show win0_1.index t (0 : Fin 2) * 64 + 1 * k.val = k.val; rw [e10]; omega
      | ⟨1, _⟩ => show win0_1.index t (1 : Fin 2) * 4 + 1 * j.val = j.val; rw [e11]; omega
    rw [he]
    exact HostSide.V_w1t_apply m c k j
  have hb1 : ∀ k : Fin 64, iblk m c 2 t (ix2 k (0 : Fin 1)) = (m ((c : Thread nD τ).loc main_arg2)) (ix1 k) := by
    intro k
    show V m c main_v5 (((cfg0.win 2).blk t).view.emb (ix2 k (0 : Fin 1))) = _
    have he : ((cfg0.win 2).blk t).view.emb (ix2 k (0 : Fin 1)) = ix2 k (0 : Fin 1) := by
      funext a; apply Fin.ext
      match a with
      | ⟨0, _⟩ => show win0_2.index t (0 : Fin 2) * 64 + 1 * k.val = k.val; rw [e20]; omega
      | ⟨1, _⟩ => show win0_2.index t (1 : Fin 2) * 1 + 1 * (0 : Fin 1).val = (0 : Fin 1).val; rw [e21]; omega
    rw [he]
    exact HostSide.V_b1c_apply m c k
  have hw2 : ∀ (o : Fin 3) (k : Fin 64), iblk m c 3 t (ix2 o k) = (m ((c : Thread nD τ).loc main_arg3)) (ix2 k o) := by
    intro o k
    show V m c main_v6 (((cfg0.win 3).blk t).view.emb (ix2 o k)) = _
    have he : ((cfg0.win 3).blk t).view.emb (ix2 o k) = ix2 o k := by
      funext a; apply Fin.ext
      match a with
      | ⟨0, _⟩ => show win0_3.index t (0 : Fin 2) * 3 + 1 * o.val = o.val; rw [e30]; omega
      | ⟨1, _⟩ => show win0_3.index t (1 : Fin 2) * 64 + 1 * k.val = k.val; rw [e31]; omega
    rw [he]
    exact HostSide.V_w2t_apply m c o k
  have hb2 : ∀ o : Fin 3, iblk m c 4 t (ix2 o (0 : Fin 1)) = (m ((c : Thread nD τ).loc main_arg4)) (ix1 o) := by
    intro o
    show V m c main_v7 (((cfg0.win 4).blk t).view.emb (ix2 o (0 : Fin 1))) = _
    have he : ((cfg0.win 4).blk t).view.emb (ix2 o (0 : Fin 1)) = ix2 o (0 : Fin 1) := by
      funext a; apply Fin.ext
      match a with
      | ⟨0, _⟩ => show win0_4.index t (0 : Fin 2) * 3 + 1 * o.val = o.val; rw [e40]; omega
      | ⟨1, _⟩ => show win0_4.index t (1 : Fin 2) * 1 + 1 * (0 : Fin 1).val = (0 : Fin 1).val; rw [e41]; omega
    rw [he]
    exact HostSide.V_b2c_apply m c o
  have key : k0_pay1 (F := Ideal) (iblk m c 0 t) (iblk m c 5 t) (iblk m c 1 t) (iblk m c 2 t) (iblk m c 3 t) (iblk m c 4 t)
      = fun y : S3x131072.Idx => G (m ((c : Thread nD τ).loc main_arg0)) (m ((c : Thread nD τ).loc main_arg1)) (m ((c : Thread nD τ).loc main_arg2)) (m ((c : Thread nD τ).loc main_arg3)) (m ((c : Thread nD τ).loc main_arg4)) (ix2 (pt t.val hT (y 1)) (y 0)) := by
    funext y
    obtain ⟨o, l, rfl⟩ : ∃ (o : Fin 3) (l : Fin 131072), y = ix2 o l := ⟨y 0, y 1, eq_ix2 y⟩
    exact entry_of_block hpay (m ((c : Thread nD τ).loc main_arg0)) (m ((c : Thread nD τ).loc main_arg1)) (m ((c : Thread nD τ).loc main_arg2)) (m ((c : Thread nD τ).loc main_arg3)) (m ((c : Thread nD τ).loc main_arg4)) (iblk m c 0 t) (iblk m c 5 t) (iblk m c 1 t) (iblk m c 2 t) (iblk m c 3 t) (iblk m c 4 t)
      t.val hT hx hg hw1 hb1 hw2 hb2 o l
  rw [key]
  funext y
  show G (m ((c : Thread nD τ).loc main_arg0)) (m ((c : Thread nD τ).loc main_arg1)) (m ((c : Thread nD τ).loc main_arg2)) (m ((c : Thread nD τ).loc main_arg3)) (m ((c : Thread nD τ).loc main_arg4)) (ix2 (pt t.val hT (y 1)) (y 0)) = GT (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y)
  unfold GT
  refine congrArg (G (m ((c : Thread nD τ).loc main_arg0)) (m ((c : Thread nD τ).loc main_arg1)) (m ((c : Thread nD τ).loc main_arg2)) (m ((c : Thread nD τ).loc main_arg3)) (m ((c : Thread nD τ).loc main_arg4))) ?_
  funext a; apply Fin.ext
  match a with
  | ⟨0, _⟩ => show t.val * 131072 + (y 1).val = win0_6.index t (1 : Fin 2) * 131072 + 1 * (y 1).val; rw [e61]; omega
  | ⟨1, _⟩ => show (y 0).val = win0_6.index t (0 : Fin 2) * 3 + 1 * (y 0).val; rw [e60]; omega

/-- An index of the output array is in point `t`'s block iff each coordinate is in the block's range on its axis. -/
theorem mem_blk (t : Fin cfg0.N) (i : S3x1048576.Idx) :
    i ∈ ((cfg0.win 6).blk t).view.set ↔ ∀ a : Fin 2, win0_6.index t a * S3x131072.size a ≤ (i a).val
      ∧ (i a).val < win0_6.index t a * S3x131072.size a + S3x131072.size a := by
  show i ∈ ((View.whole main_v8).slice (win0_6.rect t)).set ↔ _
  rw [View.set_slice_whole, Rect.mem_set_unit]
  exact Iff.rfl

/-- The eight blocks cover the output: column `n` is in block `n / B`. -/
theorem cover (i : S3x1048576.Idx) :
    ∃ t : Fin cfg0.N, (cfg0.win 6).flush t = true ∧ i ∈ ((cfg0.win 6).blk t).view.set := by
  have hi0 : (i 0).val < 3 := (i 0).isLt
  have hi1 : (i 1).val < 1048576 := (i 1).isLt
  have hq : (i 1).val / 131072 < cfg0.N := lt_of_lt_of_eq (by omega : (i 1).val / 131072 < 8) N_0.symm
  refine ⟨⟨(i 1).val / 131072, hq⟩, flush0_6 _, ?_⟩
  rw [mem_blk]
  obtain ⟨-, -, -, -, -, -, -, -, -, -, -, -, e60, e61⟩ := idx_facts ⟨(i 1).val / 131072, hq⟩
  intro a
  match a with
  | ⟨0, _⟩ =>
    show win0_6.index ⟨(i 1).val / 131072, hq⟩ (0 : Fin 2) * 3 ≤ (i 0).val
      ∧ (i 0).val < win0_6.index ⟨(i 1).val / 131072, hq⟩ (0 : Fin 2) * 3 + 3
    rw [e60]; omega
  | ⟨1, _⟩ =>
    show win0_6.index ⟨(i 1).val / 131072, hq⟩ (1 : Fin 2) * 131072 ≤ (i 1).val
      ∧ (i 1).val < win0_6.index ⟨(i 1).val / 131072, hq⟩ (1 : Fin 2) * 131072 + 131072
    rw [e61]
    show (i 1).val / 131072 * 131072 ≤ (i 1).val ∧ (i 1).val < (i 1).val / 131072 * 131072 + 131072
    omega

/-- THE OUTPUT ARRAY after the run is `GT` of the argument arrays. -/
theorem final (hpay : PayFact) (c : Dev nD) :
    (dats m 0 c).arrAt 6 cfg0.N = GT (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (GT (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m hpay c t) cover

end Cert.KernelIdeal.Blocks

end
-- ==== Proof.KRun.lean ====
/-
  The kernel program's run, with its result named.

  After the region the program transposes the `[3, N]` output to `[N, 3]`. The region leaves the output array at
  `GT (c, n) = G (n, c)`, so the transposed array is `G`: entry `(n, c)` of the transpose is entry `(c, n)` of `GT`.
  The argument arrays end as they were launched.
-/
import proofs.«179525_g24309514896055_cont_9to1_421_22_alg».proof.Proof.KBlocks
import Idealize.ShloMosaic.Lib.StableHlo.Run

set_option maxRecDepth 16384

noncomputable section

namespace Cert.KernelIdeal.RunValue

open Cert.KernelIdeal Cert.KernelIdeal.Gen Cert.VelSpec Cert.KernelIdeal.Blocks
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The transpose of `GT` is `G`. -/
theorem transpose_GT (xt : FVec Ideal ⟨2, ![1048576, 4]⟩ .f32) (W1 : FVec Ideal ⟨2, ![4, 64]⟩ .f32) (b1 : FVec Ideal ⟨1, ![64]⟩ .f32)
    (W2 : FVec Ideal ⟨2, ![64, 3]⟩ .f32) (b2 : FVec Ideal ⟨1, ![3]⟩ .f32) :
    transpose S1048576x3 [1, 0] (GT xt W1 b1 W2 b2) transposes_S3x1048576_S1048576x3_1_0 = G xt W1 b1 W2 b2 := by
  funext i
  obtain ⟨n, o, rfl⟩ : ∃ (n : Fin 1048576) (o : Fin 3), i = ix2 n o := ⟨i 0, i 1, eq_ix2 i⟩
  exact transpose_apply [1, 0] (GT xt W1 b1 W2 b2) transposes_S3x1048576_S1048576x3_1_0 (ix2 n o) (ix2 o n) (fun b => match b with
    | ⟨0, _⟩ => rfl
    | ⟨1, _⟩ => rfl)

/-- What the line after the region leaves in the result buffer. -/
theorem tail_eq (hpay : PayFact) (c : Dev nD) :
    Pipeline.afterTail₀ cfgs (dats m) 0 (V0 m) [hostOps1] c main_v9 = G (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8)
      = GT (m ((c : Thread nD τ).loc main_arg0)) (m ((c : Thread nD τ).loc main_arg1)) (m ((c : Thread nD τ).loc main_arg2)) (m ((c : Thread nD τ).loc main_arg3)) (m ((c : Thread nD τ).loc main_arg4)) :=
    (Pipeline.withArrays_arr spec0 launch0.win.arr_inj c _ _ 6).trans (final m hpay c)
  exact (congrArg (fun x => transpose S1048576x3 [1, 0] x transposes_S3x1048576_S1048576x3_1_0) hw).trans
    (transpose_GT (m ((c : Thread nD τ).loc main_arg0)) (m ((c : Thread nD τ).loc main_arg1)) (m ((c : Thread nD τ).loc main_arg2)) (m ((c : Thread nD τ).loc main_arg3)) (m ((c : Thread nD τ).loc main_arg4)))

/-- Every weakly fair execution of the kernel program terminates with the result buffer at `G` of the argument arrays
    and the argument arrays as launched. -/
theorem run (hpay : PayFact) :
    θ_run defs (onTc (τ := τ) (main (F := Ideal))) ⟨m, fun _ => 0, ρ⟩ (fun r => ∀ c : Dev nD,
      r.2.mem ((c.tc : Thread nD τ).loc main_v9) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v9 (Pipeline.mem_restRefs_of main_v9 (by decide) (by decide))).trans (tail_eq m hpay c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.KernelIdeal.RunValue

end
-- ==== Proof.lean ====
/-
  The velocity field inside a box, computed two ways: the claim and its proof.

  THE PROGRAMS. The reference takes `N = 1048576` points `x = (x₀, x₁, x₂, x₃)`, computes for each the row
  `max (x · W1 + b1) 0 · W2 + b2` (64 hidden units, three outputs), and sets the row to zero when one of `x₀, x₁, x₂` is
  below `-c` or above `c`, `c` the float `1.03`. The kernel works on the transposed data: the host transposes the points
  to `[4, N]` and the weights, turns the biases into columns, and builds an `[8, 4]` array whose rows are `(1, 1, 1, 0)`;
  one grid point per block of 131072 points computes `W2ᵀ · max (W1ᵀ · xᵀ + b1) 0 + b2` and zeroes a column where the
  matrix product of the `(1, 1, 1, 0)` rows with the excesses `max (|x| - c) 0` is positive; the host transposes the
  `[3, N]` result back.

  WHY THEY AGREE on the extended reals. Both compute `Cert.VelSpec.G` (Proof/Spec.lean), index by index:
  * the mask: the excesses are nonnegative, so their sum with weights `1, 1, 1, 0` is positive exactly when one of the
    first three is, that is when `|x j| > c`, that is when `x j < -c` or `x j > c`; the reference's lower bound is the
    same float word with the sign bit set, which denotes `-c` (Spec.lean `outside_by_excess`, `ofBits_lo`). The fourth
    term is `0 · e = 0` for every extended real `e`; nothing here needs the inputs to be finite;
  * the network: `W1ᵀ (k, j) · x (j, n) = x (n, j) · W1 (j, k)` and `W2ᵀ (c, k) · h = h · W2 (k, c)`, multiplication being
    commutative, and both sides sum over the same finite index sets; a matrix unit's product into a zero accumulator
    and the host's general product are the same sum at this instance.

  THE MODULES. Spec.lean: `G` and the two laws. BodyLaw.lean: the kernel's formula for one entry of a block, `bodyAt`,
  is `G` on transposed data. KPayload.lean: the body's stored value at an entry is `bodyAt`. KHost.lean, KWindows.lean:
  what the six input arrays hold, as arrays and at an entry. KBlocks.lean: what grid point `t` writes back is block `t`
  of the transposed result, the eight blocks cover the output, so the output array is the transposed result.
  KRun.lean: the line after the region transposes it back, so the kernel program's result is `G`. RefIsSpec.lean: the
  reference's result term is `G`, one operation at a time. The frames of the two kernel programs are the generated
  frame certificates; the reference's frame is its run with the result forgotten. The idealization rewrote no
  operation, so `preserves` has nothing to state.
-/
import proofs.«179525_g24309514896055_cont_9to1_421_22_alg».proof.Defs
import proofs.«179525_g24309514896055_cont_9to1_421_22_alg».proof.Proof.Gen.Kernel
import proofs.«179525_g24309514896055_cont_9to1_421_22_alg».proof.Proof.Gen.Kernel.Skeleton
import proofs.«179525_g24309514896055_cont_9to1_421_22_alg».proof.Proof.Gen.Kernel.Launch
import proofs.«179525_g24309514896055_cont_9to1_421_22_alg».proof.Proof.Gen.Kernel.Points
import proofs.«179525_g24309514896055_cont_9to1_421_22_alg».proof.Proof.Gen.Kernel.Frame
import proofs.«179525_g24309514896055_cont_9to1_421_22_alg».proof.Proof.Gen.KernelIdeal
import proofs.«179525_g24309514896055_cont_9to1_421_22_alg».proof.Proof.Gen.KernelIdeal.Skeleton
import proofs.«179525_g24309514896055_cont_9to1_421_22_alg».proof.Proof.Gen.KernelIdeal.Launch
import proofs.«179525_g24309514896055_cont_9to1_421_22_alg».proof.Proof.Gen.KernelIdeal.Points
import proofs.«179525_g24309514896055_cont_9to1_421_22_alg».proof.Proof.Gen.KernelIdeal.Frame
import proofs.«179525_g24309514896055_cont_9to1_421_22_alg».proof.Proof.Gen.ReferenceIdeal
import proofs.«179525_g24309514896055_cont_9to1_421_22_alg».proof.Proof.Gen.Pre_finite_inputs
import proofs.«179525_g24309514896055_cont_9to1_421_22_alg».proof.Proof.RunPatched
import proofs.«179525_g24309514896055_cont_9to1_421_22_alg».proof.Proof.ReadPatched
import proofs.«179525_g24309514896055_cont_9to1_421_22_alg».proof.Proof.RefIsSpec
import proofs.«179525_g24309514896055_cont_9to1_421_22_alg».proof.Proof.KPayload
import proofs.«179525_g24309514896055_cont_9to1_421_22_alg».proof.Proof.KRun
import Idealize.ShloMosaic.Adequacy
import Idealize.ShloMosaic.Init

noncomputable section

namespace Cert.Proof

open Idealize.ShloMosaic Idealize.SL.Sem Cert.Kernel

/-- The word-level kernel program runs and keeps its arguments: its generated frame certificate. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the five arguments both programs end with the result buffer at `G` of the arguments:
    the kernel program by its run (KRun.lean), the reference by its run read one operation at a time
    (RefIsSpec.lean), the arguments' agreement rewritten. -/
theorem algebraic : Cert.algebraic_KernelIdeal_ReferenceIdeal := by
  intro m ρ m' ρ' _ hagree
  refine ⟨fun c => Cert.VelSpec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.RunValue.run m ρ Cert.KernelIdeal.Payload.pay_apply, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v18_eq, Cert.VelRef.ref_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
